-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2 : Shape := ⟨2, ![2, 2]⟩
abbrev S_ : Shape := ⟨0, ![]⟩

class Facts : Prop where
  bcast_S_S2x2 : S_.BroadcastsInDim S2x2 (![] : Fin 0 → Fin S2x2.rank)
  reducesTo_S2x2_S_d0_1 : S2x2.ReducesTo [0, 1] S_
  h_S_ : 0 < S_.numel

variable [Facts]

def fn_part1 {F : FTy → Type} [FloatOps F] (main_arg4 : FVec F S2x2 .f32) (main_arg5 : FVec F S2x2 .f32) (main_arg6 : FVec F S2x2 .f32) (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  let main_v19 : FVec F S2x2 .f32 := Host.absf main_arg4
  let main_cst_6 : FVec F S_ .f32 := constant S_ .f32 0x7F800000#32
  let main_v20 : FVec F S2x2 .f32 := broadcastInDim S2x2 ![] bcast_S_S2x2 main_cst_6
  let main_v21 : IVec S2x2 1 := cmpf .olt main_v19 main_v20
  let main_c_7 : IVec S_ 1 := constantI S_ 1 1#1
  let main_v22 : IVec S_ 1 := (fun x v => Host.reduce IntOp.andi x v reducesTo_S2x2_S_d0_1 h_S_) main_v21 main_c_7
  let main_v23 : IVec S_ 1 := andi main_v18 main_v22
  let main_v24 : FVec F S2x2 .f32 := Host.absf main_arg5
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2x2 .f32 := Host.absf main_arg6
  let main_cst_10 : FVec F S_ .f32 := constant S_ .f32 0x7F800000#32
  let main_v30 : FVec F S2x2 .f32 := broadcastInDim S2x2 ![] bcast_S_S2x2 main_cst_10
  let main_v31 : IVec S2x2 1 := cmpf .olt main_v29 main_v30
  let main_c_11 : IVec S_ 1 := constantI S_ 1 1#1
  let main_v32 : IVec S_ 1 := (fun x v => Host.reduce IntOp.andi x v reducesTo_S2x2_S_d0_1 h_S_) main_v31 main_c_11
  let main_v33 : IVec S_ 1 := andi main_v28 main_v32
  main_v33

def fn {F : FTy → Type} [FloatOps F] (main_arg0 : FVec F S2x2 .f32) (main_arg1 : FVec F S2x2 .f32) (main_arg2 : FVec F S2x2 .f32) (main_arg3 : FVec F S2x2 .f32) (main_arg4 : FVec F S2x2 .f32) (main_arg5 : FVec F S2x2 .f32) (main_arg6 : FVec F S2x2 .f32) : IVec S_ 1 :=
  let main_v0 : FVec F S2x2 .f32 := Host.absf main_arg0
  let main_cst : FVec F S_ .f32 := constant S_ .f32 0x7F800000#32
  let main_v1 : FVec F S2x2 .f32 := broadcastInDim S2x2 ![] bcast_S_S2x2 main_cst
  let main_v2 : IVec S2x2 1 := cmpf .olt main_v0 main_v1
  let main_c : IVec S_ 1 := constantI S_ 1 1#1
  let main_v3 : IVec S_ 1 := (fun x v => Host.reduce IntOp.andi x v reducesTo_S2x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2x2 .f32 := Host.absf main_arg2
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  let main_v14 : FVec F S2x2 .f32 := Host.absf main_arg3
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_arg4 main_arg5 main_arg6 main_v13 main_v16
-- ==== Kernel.lean ====
abbrev S2x2 : Shape := ⟨2, ![2, 2]⟩
abbrev S1x2x2 : Shape := ⟨3, ![1, 2, 2]⟩
abbrev S5x2x2 : Shape := ⟨3, ![5, 2, 2]⟩

abbrev nBuf : Space → Nat
  | .hbm => 14
  | .vmem => 2
  | .smem => 0
  | _ => 0

abbrev bufTy : (tb : Table) → Fin (tcTables nBuf tb) → BufTy
  | .hbm, ⟨0, _⟩ => ⟨S2x2, .f32⟩
  | .hbm, ⟨1, _⟩ => ⟨S2x2, .f32⟩
  | .hbm, ⟨2, _⟩ => ⟨S2x2, .f32⟩
  | .hbm, ⟨3, _⟩ => ⟨S2x2, .f32⟩
  | .hbm, ⟨4, _⟩ => ⟨S2x2, .f32⟩
  | .hbm, ⟨5, _⟩ => ⟨S2x2, .f32⟩
  | .hbm, ⟨6, _⟩ => ⟨S2x2, .f32⟩
  | .hbm, ⟨7, _⟩ => ⟨S1x2x2, .f32⟩
  | .hbm, ⟨8, _⟩ => ⟨S1x2x2, .f32⟩
  | .hbm, ⟨9, _⟩ => ⟨S1x2x2, .f32⟩
  | .hbm, ⟨10, _⟩ => ⟨S1x2x2, .f32⟩
  | .hbm, ⟨11, _⟩ => ⟨S1x2x2, .f32⟩
  | .hbm, ⟨12, _⟩ => ⟨S5x2x2, .f32⟩
  | .hbm, ⟨13, _⟩ => ⟨S2x2, .f32⟩
  | .local _ .vmem, ⟨0, _⟩ => ⟨S5x2x2, .f32⟩
  | .local _ .vmem, ⟨1, _⟩ => ⟨S2x2, .f32⟩
  | _, _ => ⟨S2x2, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S5x2x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S2x2_S1x2x2_1_2 : S2x2.BroadcastsInDim S1x2x2 (![1, 2] : Fin 2 → Fin S1x2x2.rank)
  concatenates_S1x2x2_S1x2x2_S1x2x2_S1x2x2_S1x2x2_S5x2x2_d0 : Shape.Concatenates [S1x2x2, S1x2x2, S1x2x2, S1x2x2, S1x2x2] S5x2x2 0
  inb_S5x2x2_S1x2x2_0_0_0 : ∀ a, (![0, 0, 0] : Fin 3 → Nat) a + S1x2x2.size a ≤ S5x2x2.size a
  h_S1x2x2 : 0 < S1x2x2.numel
  shapeCasts_S1x2x2_S2x2 : S1x2x2.ShapeCasts S2x2
  inb_S5x2x2_S1x2x2_1_0_0 : ∀ a, (![1, 0, 0] : Fin 3 → Nat) a + S1x2x2.size a ≤ S5x2x2.size a
  inb_S5x2x2_S1x2x2_2_0_0 : ∀ a, (![2, 0, 0] : Fin 3 → Nat) a + S1x2x2.size a ≤ S5x2x2.size a
  inb_S5x2x2_S1x2x2_3_0_0 : ∀ a, (![3, 0, 0] : Fin 3 → Nat) a + S1x2x2.size a ≤ S5x2x2.size a
  inb_S5x2x2_S1x2x2_4_0_0 : ∀ a, (![4, 0, 0] : Fin 3 → Nat) a + S1x2x2.size a ≤ S5x2x2.size a
  inb_S2x2_S2x2_0_0 : ∀ a, (![0, 0] : Fin 2 → Nat) a + S2x2.size a ≤ S2x2.size a
  h_S2x2 : 0 < S2x2.numel
  dot_S2x2_S2x2_S2x2_1_0_0_1_n_n_wf : DotDims.WF S2x2 S2x2 S2x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5x2x2.size a ≤ S5x2x2.size a
  hwx0_0 : ∀ i : grid0.Coords, EltTy.bits .f32 = 32 ∨ (Rect.block (s := S5x2x2) S5x2x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)

variable [Facts₀]

def dot_S2x2_S2x2_S2x2_1_0_0_1_n_n : DotDims S2x2 S2x2 S2x2 where
  lhsContracting := [1]
  rhsContracting := [0]
  lhsNonContracting := [0]
  rhsNonContracting := [1]
  lhsBatch := []
  rhsBatch := []
  wf := dot_S2x2_S2x2_S2x2_1_0_0_1_n_n_wf

abbrev win0_0 : Pipeline.Window sig grid0 :=
  Pipeline.Window.ofSpec (Memref.whole main_v5) S5x2x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x2.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x2 : Shape := ⟨2, ![2, 2]⟩

abbrev nBuf : Space → Nat
  | .hbm => 13
  | .vmem => 0
  | .smem => 0
  | _ => 0

abbrev bufTy : (tb : Table) → Fin (tcTables nBuf tb) → BufTy
  | .hbm, ⟨0, _⟩ => ⟨S2x2, .f32⟩
  | .hbm, ⟨1, _⟩ => ⟨S2x2, .f32⟩
  | .hbm, ⟨2, _⟩ => ⟨S2x2, .f32⟩
  | .hbm, ⟨3, _⟩ => ⟨S2x2, .f32⟩
  | .hbm, ⟨4, _⟩ => ⟨S2x2, .f32⟩
  | .hbm, ⟨5, _⟩ => ⟨S2x2, .f32⟩
  | .hbm, ⟨6, _⟩ => ⟨S2x2, .f32⟩
  | .hbm, ⟨7, _⟩ => ⟨S2x2, .f32⟩
  | .hbm, ⟨8, _⟩ => ⟨S2x2, .f32⟩
  | .hbm, ⟨9, _⟩ => ⟨S2x2, .f32⟩
  | .hbm, ⟨10, _⟩ => ⟨S2x2, .f32⟩
  | .hbm, ⟨11, _⟩ => ⟨S2x2, .f32⟩
  | .hbm, ⟨12, _⟩ => ⟨S2x2, .f32⟩
  | _, _ => ⟨S2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  dot_S2x2_S2x2_S2x2_1_0_0_1_n_n_wf : DotDims.WF S2x2 S2x2 S2x2 [1] [0] [0] [1] [] []

variable [Facts₀]

def dot_S2x2_S2x2_S2x2_1_0_0_1_n_n : DotDims S2x2 S2x2 S2x2 where
  lhsContracting := [1]
  rhsContracting := [0]
  lhsNonContracting := [0]
  rhsNonContracting := [1]
  lhsBatch := []
  rhsBatch := []
  wf := dot_S2x2_S2x2_S2x2_1_0_0_1_n_n_wf

class Facts : Prop extends Facts₀ where

variable [Facts]
-- ==== Proof.KernelRegion.lean ====
/-
  The one pallas region of this program, run to its end, at any float instance.

  @main is six host operations followed by one region.  The host operations give five of the seven 2×2 arguments
  a leading unit axis and stack them along it into ONE 5×2×2 operand; the region has a single grid point and two
  windows, each the whole of its array: the stacked operand (fetched into its staging buffer before the body) and
  the 2×2 result (written back after it).  The body loads the five 1×2×2 slabs of the operand, loads the result
  buffer once without using what it read, and stores ONE 2×2 value over the whole result buffer.

  Stated and proved here:
    * what the core's buffers hold when the region is entered (`V`: the contents after the host operations), and
      that no host operation writes an argument (`V_main_argK`);
    * what the body leaves in the result buffer, as a function of the operand's block (`stored`): the one store's
      value over the five loaded slabs — the store covers the buffer, so nothing of its earlier contents remains;
    * the body's triple, from the operand's buffer at known contents and the result buffer at ANY contents
      (the body reads it, so it must be held, but nothing depends on what is read);
    * the proof data of the pipeline, the body obligation at the grid's point, and the run of @main
      (`run_main`), whose post names the result array after the run and has every other buffer as the region found it;
    * `run_named`: that run with the result array named and the seven arguments as launched.
-/
import proofs.«131000_j39676907886828_2_alg».proof.Proof.Gen.Kernel.Launch
import proofs.«131000_j39676907886828_2_alg».proof.Proof.Gen.Kernel.Skeleton
import proofs.«131000_j39676907886828_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents carried through the six host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is none of the six results `main_v0 … main_v5` is written by no host operation: the region
    finds it as launched.  (Each operation writes exactly its result.) -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_result m c main_arg0 (by decide) (by decide) (by decide) (by decide) (by decide) (by decide)
theorem V_main_arg1 (c : Dev nD) : V m c main_arg1 = m ((c : Thread nD τ).loc main_arg1) :=
  V_of_not_result m c main_arg1 (by decide) (by decide) (by decide) (by decide) (by decide) (by decide)
theorem V_main_arg2 (c : Dev nD) : V m c main_arg2 = m ((c : Thread nD τ).loc main_arg2) :=
  V_of_not_result m c main_arg2 (by decide) (by decide) (by decide) (by decide) (by decide) (by decide)
theorem V_main_arg3 (c : Dev nD) : V m c main_arg3 = m ((c : Thread nD τ).loc main_arg3) :=
  V_of_not_result m c main_arg3 (by decide) (by decide) (by decide) (by decide) (by decide) (by decide)
theorem V_main_arg4 (c : Dev nD) : V m c main_arg4 = m ((c : Thread nD τ).loc main_arg4) :=
  V_of_not_result m c main_arg4 (by decide) (by decide) (by decide) (by decide) (by decide) (by decide)
theorem V_main_arg5 (c : Dev nD) : V m c main_arg5 = m ((c : Thread nD τ).loc main_arg5) :=
  V_of_not_result m c main_arg5 (by decide) (by decide) (by decide) (by decide) (by decide) (by decide)
theorem V_main_arg6 (c : Dev nD) : V m c main_arg6 = m ((c : Thread nD τ).loc main_arg6) :=
  V_of_not_result m c main_arg6 (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses -/

/-- The five 1×2×2 slabs of the 5×2×2 operand buffer, and the whole 2×2 result buffer. -/
abbrev slab0 : Rect S5x2x2 := Rect.unit (s := S5x2x2) ![0, 0, 0] S1x2x2.size inb_S5x2x2_S1x2x2_0_0_0
abbrev slab1 : Rect S5x2x2 := Rect.unit (s := S5x2x2) ![1, 0, 0] S1x2x2.size inb_S5x2x2_S1x2x2_1_0_0
abbrev slab2 : Rect S5x2x2 := Rect.unit (s := S5x2x2) ![2, 0, 0] S1x2x2.size inb_S5x2x2_S1x2x2_2_0_0
abbrev slab3 : Rect S5x2x2 := Rect.unit (s := S5x2x2) ![3, 0, 0] S1x2x2.size inb_S5x2x2_S1x2x2_3_0_0
abbrev slab4 : Rect S5x2x2 := Rect.unit (s := S5x2x2) ![4, 0, 0] S1x2x2.size inb_S5x2x2_S1x2x2_4_0_0
abbrev wholeOut : Rect S2x2 := Rect.unit (s := S2x2) ![0, 0] S2x2.size inb_S2x2_S2x2_0_0

/-! ## What the body leaves in the result buffer -/

/-- The result buffer after the body, from the operand's block `x`: its one store, of the body's value over the
    five slabs of `x`, as a list of one piece. -/
def stored (x : Vec F S5x2x2 .f32) : Vec F S2x2 .f32 :=
  View.canon [⟨wholeOut, k0_pay1 (View.ld x slab0) (View.ld x slab1) (View.ld x slab2) (View.ld x slab3) (View.ld x slab4)⟩]

theorem zeros2 : (![0, 0] : Fin 2 → Nat) = fun _ => 0 := funext fun a => by fin_cases a <;> rfl

/-- The store's rectangle is the whole buffer: every index is under it. -/
theorem stored_covers (p : Vec F S2x2 .f32) (y : S2x2.Idx) :
    ∃ pc ∈ ([⟨wholeOut, p⟩] : List (View.Piece (Elt F) S2x2 .f32)), y ∈ pc.1.set :=
  ⟨_, List.mem_singleton_self _, View.mem_set_unit_zero zeros2 inb_S2x2_S2x2_0_0 y⟩

/-- So what is left is the stored value itself. -/
theorem stored_eq (x : Vec F S5x2x2 .f32) :
    stored x = k0_pay1 (View.ld x slab0) (View.ld x slab1) (View.ld x slab2) (View.ld x slab3) (View.ld x slab4) := by
  unfold stored; rw [View.canon_unit_zero zeros2]

/-! ## The body's triple -/

set_option maxHeartbeats 1000000 in
/-- The body on whole staging memrefs — the operand's at contents `x`, the result's at anything — runs to the
    continuation holding the operand's as it was and the result's at `stored x`.  The printed function is its
    skeleton of six loads and one store over the named value; the sixth load reads the result buffer and its value is
    used nowhere. -/
theorem sound_kernel (c : Dev nD) (E : Set ℕ) (i : grid0.Coords)
    (arg1 : Memref sig .tc .vmem S5x2x2 .f32) (harg1 : arg1.IsWhole) (arg2 : Memref sig .tc .vmem S2x2 .f32) (harg2 : arg2.IsWhole)
    (x : Vec F S5x2x2 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_covers _)

/-! ## The pipeline's proof data -/

/-- The proof data of the pipeline on core `c`: the arrays as the region finds them; after the body the operand's
    buffer at its block and the result's at `stored` of that block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => stored (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_operand (c : Dev nD) (t : Fin cfg0.N) : (dats m 0 c).after 0 t = iblk m c 0 t := by dsimp only [dats]
theorem after_result (c : Dev nD) (t : Fin cfg0.N) : (dats m 0 c).after 1 t = stored (iblk m c 0 t) := by dsimp only [dats]

/-- The operand's staging buffer holds its block when the body starts: the window is fetched at the point. -/
theorem before_operand (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at the point: the operand's memref holds its block, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_operand]
  rw [show (dats m 0 c).Φ t.succ = (dats m 0 c).Φ t.castSucc from rfl,
    show (dats m 0 c).owesAt () t.succ = (dats m 0 c).owesAt () t.castSucc from rfl,
    after_operand, after_result]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, the pipeline's two arrays end at
    what the proof data computes, and every other unscoped buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array NAMED and the seven arguments as launched: no window stages an argument, and no
    host operation writes one. -/
theorem run_named : θ_run defs (onTc (τ := τ) (main (F := F))) ⟨m, fun _ => 0, ρ⟩ (fun r => ∀ c : Dev nD,
      r.2.mem ((c.tc : Thread nD τ).loc main_v6) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 1,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Kernel.Region

end
-- ==== Proof.KernelIdealRegion.lean ====
/-
  The one pallas region of this program, run to its end, at any float instance.

  @main is six host operations followed by one region.  The host operations give five of the seven 2×2 arguments
  a leading unit axis and stack them along it into ONE 5×2×2 operand; the region has a single grid point and two
  windows, each the whole of its array: the stacked operand (fetched into its staging buffer before the body) and
  the 2×2 result (written back after it).  The body loads the five 1×2×2 slabs of the operand, loads the result
  buffer once without using what it read, and stores ONE 2×2 value over the whole result buffer.

  Stated and proved here:
    * what the core's buffers hold when the region is entered (`V`: the contents after the host operations), and
      that no host operation writes an argument (`V_main_argK`);
    * what the body leaves in the result buffer, as a function of the operand's block (`stored`): the one store's
      value over the five loaded slabs — the store covers the buffer, so nothing of its earlier contents remains;
    * the body's triple, from the operand's buffer at known contents and the result buffer at ANY contents
      (the body reads it, so it must be held, but nothing depends on what is read);
    * the proof data of the pipeline, the body obligation at the grid's point, and the run of @main
      (`run_main`), whose post names the result array after the run and has every other buffer as the region found it;
    * `run_named`: that run with the result array named and the seven arguments as launched.
-/
import proofs.«131000_j39676907886828_2_alg».proof.Proof.Gen.KernelIdeal.Launch
import proofs.«131000_j39676907886828_2_alg».proof.Proof.Gen.KernelIdeal.Skeleton
import proofs.«131000_j39676907886828_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents carried through the six host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is none of the six results `main_v0 … main_v5` is written by no host operation: the region
    finds it as launched.  (Each operation writes exactly its result.) -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_result m c main_arg0 (by decide) (by decide) (by decide) (by decide) (by decide) (by decide)
theorem V_main_arg1 (c : Dev nD) : V m c main_arg1 = m ((c : Thread nD τ).loc main_arg1) :=
  V_of_not_result m c main_arg1 (by decide) (by decide) (by decide) (by decide) (by decide) (by decide)
theorem V_main_arg2 (c : Dev nD) : V m c main_arg2 = m ((c : Thread nD τ).loc main_arg2) :=
  V_of_not_result m c main_arg2 (by decide) (by decide) (by decide) (by decide) (by decide) (by decide)
theorem V_main_arg3 (c : Dev nD) : V m c main_arg3 = m ((c : Thread nD τ).loc main_arg3) :=
  V_of_not_result m c main_arg3 (by decide) (by decide) (by decide) (by decide) (by decide) (by decide)
theorem V_main_arg4 (c : Dev nD) : V m c main_arg4 = m ((c : Thread nD τ).loc main_arg4) :=
  V_of_not_result m c main_arg4 (by decide) (by decide) (by decide) (by decide) (by decide) (by decide)
theorem V_main_arg5 (c : Dev nD) : V m c main_arg5 = m ((c : Thread nD τ).loc main_arg5) :=
  V_of_not_result m c main_arg5 (by decide) (by decide) (by decide) (by decide) (by decide) (by decide)
theorem V_main_arg6 (c : Dev nD) : V m c main_arg6 = m ((c : Thread nD τ).loc main_arg6) :=
  V_of_not_result m c main_arg6 (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses -/

/-- The five 1×2×2 slabs of the 5×2×2 operand buffer, and the whole 2×2 result buffer. -/
abbrev slab0 : Rect S5x2x2 := Rect.unit (s := S5x2x2) ![0, 0, 0] S1x2x2.size inb_S5x2x2_S1x2x2_0_0_0
abbrev slab1 : Rect S5x2x2 := Rect.unit (s := S5x2x2) ![1, 0, 0] S1x2x2.size inb_S5x2x2_S1x2x2_1_0_0
abbrev slab2 : Rect S5x2x2 := Rect.unit (s := S5x2x2) ![2, 0, 0] S1x2x2.size inb_S5x2x2_S1x2x2_2_0_0
abbrev slab3 : Rect S5x2x2 := Rect.unit (s := S5x2x2) ![3, 0, 0] S1x2x2.size inb_S5x2x2_S1x2x2_3_0_0
abbrev slab4 : Rect S5x2x2 := Rect.unit (s := S5x2x2) ![4, 0, 0] S1x2x2.size inb_S5x2x2_S1x2x2_4_0_0
abbrev wholeOut : Rect S2x2 := Rect.unit (s := S2x2) ![0, 0] S2x2.size inb_S2x2_S2x2_0_0

/-! ## What the body leaves in the result buffer -/

/-- The result buffer after the body, from the operand's block `x`: its one store, of the body's value over the
    five slabs of `x`, as a list of one piece. -/
def stored (x : Vec F S5x2x2 .f32) : Vec F S2x2 .f32 :=
  View.canon [⟨wholeOut, k0_pay1 (View.ld x slab0) (View.ld x slab1) (View.ld x slab2) (View.ld x slab3) (View.ld x slab4)⟩]

theorem zeros2 : (![0, 0] : Fin 2 → Nat) = fun _ => 0 := funext fun a => by fin_cases a <;> rfl

/-- The store's rectangle is the whole buffer: every index is under it. -/
theorem stored_covers (p : Vec F S2x2 .f32) (y : S2x2.Idx) :
    ∃ pc ∈ ([⟨wholeOut, p⟩] : List (View.Piece (Elt F) S2x2 .f32)), y ∈ pc.1.set :=
  ⟨_, List.mem_singleton_self _, View.mem_set_unit_zero zeros2 inb_S2x2_S2x2_0_0 y⟩

/-- So what is left is the stored value itself. -/
theorem stored_eq (x : Vec F S5x2x2 .f32) :
    stored x = k0_pay1 (View.ld x slab0) (View.ld x slab1) (View.ld x slab2) (View.ld x slab3) (View.ld x slab4) := by
  unfold stored; rw [View.canon_unit_zero zeros2]

/-! ## The body's triple -/

set_option maxHeartbeats 1000000 in
/-- The body on whole staging memrefs — the operand's at contents `x`, the result's at anything — runs to the
    continuation holding the operand's as it was and the result's at `stored x`.  The printed function is its
    skeleton of six loads and one store over the named value; the sixth load reads the result buffer and its value is
    used nowhere. -/
theorem sound_kernel (c : Dev nD) (E : Set ℕ) (i : grid0.Coords)
    (arg1 : Memref sig .tc .vmem S5x2x2 .f32) (harg1 : arg1.IsWhole) (arg2 : Memref sig .tc .vmem S2x2 .f32) (harg2 : arg2.IsWhole)
    (x : Vec F S5x2x2 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (stored x)) -∗ K ⟨⟩))
      ⊢ wp frame (wpE (defs₀ (F := F)) Variants.none c none) E (cc0__kernel i arg1 harg1 arg2 harg2) K := by
  simp only [cc0__kernel_eq_skeleton]; unfold cc0__kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (stored_covers _)

/-! ## The pipeline's proof data -/

/-- The proof data of the pipeline on core `c`: the arrays as the region finds them; after the body the operand's
    buffer at its block and the result's at `stored` of that block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => stored (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_operand (c : Dev nD) (t : Fin cfg0.N) : (dats m 0 c).after 0 t = iblk m c 0 t := by dsimp only [dats]
theorem after_result (c : Dev nD) (t : Fin cfg0.N) : (dats m 0 c).after 1 t = stored (iblk m c 0 t) := by dsimp only [dats]

/-- The operand's staging buffer holds its block when the body starts: the window is fetched at the point. -/
theorem before_operand (c : Dev nD) (t : Fin cfg0.N) (d) : (dats m 0 c).before 0 t d = iblk m c 0 t :=
  ((dats m 0 c).before_fetched 0 t (fetch0_0 t) d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at the point: the operand's memref holds its block, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_operand]
  rw [show (dats m 0 c).Φ t.succ = (dats m 0 c).Φ t.castSucc from rfl,
    show (dats m 0 c).owesAt () t.succ = (dats m 0 c).owesAt () t.castSucc from rfl,
    after_operand, after_result]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, the pipeline's two arrays end at
    what the proof data computes, and every other unscoped buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array NAMED and the seven arguments as launched: no window stages an argument, and no
    host operation writes one. -/
theorem run_named : θ_run defs (onTc (τ := τ) (main (F := F))) ⟨m, fun _ => 0, ρ⟩ (fun r => ∀ c : Dev nD,
      r.2.mem ((c.tc : Thread nD τ).loc main_v6) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 1,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Region

end
-- ==== Proof.LibStackSlab.lean ====
/-
  A slab of a stack.

  Stack `N` arrays of extents `d` along a NEW leading axis: give each a leading unit axis (a broadcast along the
  trailing axes) and concatenate along that axis.  Reading the stack through the unit-stride rectangle that starts at
  row `k` of the leading axis and spans one row — a slab of extents `(1, d…)` — and dropping the slab's unit axis gives
  back the `k`-th array: at the index `y`, the slab reads the stack at `(k, y)`, the concatenation locates row `k` in piece
  `k` at its row `0`, and the piece at `(0, y)` is the array at `y`.

  Stated for any list of pieces, any number of trailing axes and any element type; the piece list, the row and the
  offsets are the caller's literals, so the side conditions (`hxk`, `hpre`, `h0`, `hrest`) close by evaluation.
-/
import Idealize.ShloMosaic.Lib.Pipeline.Value

noncomputable section

namespace Idealize.ShloMosaic.StackSlab

open Idealize.ShloMosaic

/-- Row `k` of a concatenation along a new leading axis of pieces with a leading unit axis, read as a slab through a
    unit-stride rectangle at offsets `(k, 0, …, 0)` and recast to the piece's trailing extents, is the array that
    piece `k` was broadcast from. -/
theorem slab_eq {Val : EltTy → Type} {e : EltTy} {n : Nat} (d : Fin n → Nat) (N : Nat)
    (xs : List ((s : Shape) × (s.Idx → Val e)))
    (hc : Shape.Concatenates (xs.map (·.1)) (⟨n + 1, Matrix.vecCons N d⟩ : Shape) (0 : Fin (n + 1)))
    (k : Nat) (hk : k < xs.length) (u : (⟨n, d⟩ : Shape).Idx → Val e)
    (dims : Fin n → Fin (n + 1)) (hdims : ∀ a, dims a = a.succ)
    (hb : (⟨n, d⟩ : Shape).BroadcastsInDim ⟨n + 1, Matrix.vecCons 1 d⟩ dims) (hd : ∀ a, d a ≠ 1)
    (hxk : xs[k] = ⟨(⟨n + 1, Matrix.vecCons 1 d⟩ : Shape), broadcastInDim ⟨n + 1, Matrix.vecCons 1 d⟩ dims hb u⟩)
    (hpre : (((xs.take k).map (·.1)).map fun s =>
        if h : s.rank = (⟨n + 1, Matrix.vecCons N d⟩ : Shape).rank then s.size ((0 : Fin (n + 1)).cast h.symm) else 0).sum = k)
    (off : Fin (n + 1) → Nat) (h0 : off 0 = k) (hrest : ∀ a : Fin n, off a.succ = 0)
    (inb : ∀ a, off a + (Matrix.vecCons 1 d) a ≤ (⟨n + 1, Matrix.vecCons N d⟩ : Shape).size a)
    (hs : (⟨n + 1, Matrix.vecCons 1 d⟩ : Shape).ShapeCasts ⟨n, d⟩) :
    shapeCast ⟨n, d⟩
        (View.ld (S := ⟨n + 1, Matrix.vecCons N d⟩) (concatenate ⟨n + 1, Matrix.vecCons N d⟩ 0 xs hc)
          (Rect.unit (s := ⟨n + 1, Matrix.vecCons N d⟩) off (Matrix.vecCons 1 d) inb)) hs
      = u := by
  funext y
  refine (shapeCast_dropUnit_apply d _ hs y).trans ?_
  show concatenate ⟨n + 1, Matrix.vecCons N d⟩ 0 xs hc
      ((Rect.unit (s := ⟨n + 1, Matrix.vecCons N d⟩) off (Matrix.vecCons 1 d) inb).idx (Fin.cons ⟨0, Nat.one_pos⟩ y)) = u y
  refine (concatenate_apply_piece (t := ⟨n + 1, Matrix.vecCons N d⟩) (0 : Fin (n + 1)) xs hc _ k hk _ _ hxk rfl k hpre (Fin.cons ⟨0, Nat.one_pos⟩ y) ?_ ?_).trans
    (broadcastInDim_cons_zero hdims hb u hd y)
  · intro b hb0
    refine Fin.cases (fun h => absurd rfl h) (fun a _ => ?_) b hb0
    show ((Fin.cons ⟨0, Nat.one_pos⟩ y : (⟨n + 1, Matrix.vecCons 1 d⟩ : Shape).Idx) a.succ).val
      = off a.succ + 1 * ((Fin.cons ⟨0, Nat.one_pos⟩ y : (⟨n + 1, Matrix.vecCons 1 d⟩ : Shape).Idx) a.succ).val
    rw [hrest a]; omega
  · show k + 0 = off 0 + 1 * 0
    rw [h0]

end Idealize.ShloMosaic.StackSlab

end
-- ==== Proof.LibNary5.lean ====
/-
  A host operation over FIVE references, read through the operations before it.

  A host operation that takes a family of operands (a concatenation of five arrays) hands its function the operands'
  contents as a function of the position `k` in the family.  Read that way the contents of operand `k` sit under a
  binder, at the reference "entry `k` of the family", which is no literal reference — so the result of the operation
  that WROTE operand `k` cannot be rewritten there.  For a literal family of five references the contents are restated
  position by position, each at its own literal reference, and the operations before can then be read one at a time.
-/
import Idealize.ShloMosaic.Lib.StableHlo.Run

noncomputable section

namespace Idealize.ShloMosaic.StableHlo

variable {τ : Topo} {sig : RefSig} {Val : EltTy → Type}

/-- The result of a host operation over the literal family `![x, a, b, c, e]`, at its own result reference: its function
    of the five operands' contents, each read at its own reference. -/
theorem nary5_result {x a b c e y : Ref sig .tc}
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Idealize.ShloMosaic.StableHlo

end
-- ==== Proof.KernelIdealValue.lean ====
/-
  What the kernel's result array holds after the run, as one function of the seven arguments.

  The region's operand is the STACK of five arguments (`x3, x4, x5, x6, x7`, the third to seventh): each given a
  leading unit axis, then concatenated along it.  The grid has one point and each window's block is its whole array,
  so the operand's staging buffer holds the whole stack, what the point writes back is the whole of what the body
  stored, and the result array after the run is that value.  The body's slab `k` of the stack, with its unit axis
  dropped, is the `k`-th stacked argument; so the stored value is

      (x3 · x7) · (x6 · x5)  +  (x4 · (x6 · x5)) · x6

  each `·` a matrix product accumulated into the zero 2×2 array (`chain`), at any float instance.
-/
import proofs.«131000_j39676907886828_2_alg».proof.Proof.KernelIdealRegion
import proofs.«131000_j39676907886828_2_alg».proof.Proof.LibStackSlab
import proofs.«131000_j39676907886828_2_alg».proof.Proof.LibNary5
import Idealize.ShloMosaic.Lib.Pipeline.Value
import Idealize.ShloMosaic.Lib.StableHlo.Run

noncomputable section

namespace Cert.KernelIdeal.RegionValue

open Cert.KernelIdeal Cert.KernelIdeal.Gen Cert.KernelIdeal.Region
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The stacked operand -/

/-- Five 2×2 arrays, each given a leading unit axis: the pieces of the stack, in order. -/
abbrev pieces (x3 x4 x5 x6 x7 : Vec F S2x2 .f32) : List ((s : Shape) × (s.Idx → Elt F .f32)) :=
  [⟨S1x2x2, broadcastInDim S1x2x2 ![1, 2] bcast_S2x2_S1x2x2_1_2 x3⟩,
   ⟨S1x2x2, broadcastInDim S1x2x2 ![1, 2] bcast_S2x2_S1x2x2_1_2 x4⟩,
   ⟨S1x2x2, broadcastInDim S1x2x2 ![1, 2] bcast_S2x2_S1x2x2_1_2 x5⟩,
   ⟨S1x2x2, broadcastInDim S1x2x2 ![1, 2] bcast_S2x2_S1x2x2_1_2 x6⟩,
   ⟨S1x2x2, broadcastInDim S1x2x2 ![1, 2] bcast_S2x2_S1x2x2_1_2 x7⟩]

/-- Five 2×2 arrays stacked along a new leading axis: the pieces concatenated along it. -/
abbrev stack (x3 x4 x5 x6 x7 : Vec F S2x2 .f32) : Vec F S5x2x2 .f32 :=
  concatenate S5x2x2 0 (pieces x3 x4 x5 x6 x7) concatenates_S1x2x2_S1x2x2_S1x2x2_S1x2x2_S1x2x2_S5x2x2_d0

/-- When the region is entered the operand's array holds the stack of the third to seventh arguments as launched:
    the sixth host operation's result over the first five's, each of those over an argument no operation writes. -/
theorem V_stack (c : Dev nD) :
    (V m c main_v5 : Vec F S5x2x2 .f32)
      = stack (m ((c : Thread nD τ).loc main_arg2)) (m ((c : Thread nD τ).loc main_arg3)) (m ((c : Thread nD τ).loc main_arg4))
          (m ((c : Thread nD τ).loc main_arg5)) (m ((c : Thread nD τ).loc main_arg6)) := by
  dsimp only [V, hostOps0]
  simp only [after_cons, after_nil]
  rw [nary5_result]
  repeat (first | rw [unary_result] | (rw [unary_result_ne]; rotate_left; decide))
  rfl

/-! ## One point, whole-array blocks -/

/-- Both windows' block indices are zero on every axis at the grid's point. -/
theorem idx_zero : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0 :=
  (by decide +kernel : ∀ t : Fin grid0.N, _)

/-- The operand's block at the point is its whole array: a block's coordinate is index × extent + the coordinate inside
    the block, and the index is zero. -/
theorem operand_block (c : Dev nD) (t : Fin cfg0.N) : iblk m c 0 t = (V m c main_v5 : Vec F S5x2x2 .f32) := by
  obtain ⟨e0, e1, e2, -, -⟩ := idx_zero t
  funext y
  show V m c main_v5 (((cfg0.win 0).blk t).view.emb y) = V m c main_v5 y
  refine congrArg (V m c main_v5) (funext fun a => Fin.ext ?_)
  match a with
  | ⟨0, _⟩ => show win0_0.index t (0 : Fin 3) * 5 + 1 * (y 0).val = (y 0).val; omega
  | ⟨1, _⟩ => show win0_0.index t (1 : Fin 3) * 2 + 1 * (y 1).val = (y 1).val; omega
  | ⟨2, _⟩ => show win0_0.index t (2 : Fin 3) * 2 + 1 * (y 2).val = (y 2).val; omega

/-- What the point writes back is the whole of what the body stored, read through the result's (whole-array) block. -/
theorem flushed_eq (c : Dev nD) (t : Fin cfg0.N) :
    (dats m 0 c).flushed 1 t = ((cfg0.win 1).blk t).view.read (Elt F) (stored (V m c main_v5)) := by
  show (cfg0.win 1).cut (grid0.coords t) ((dats m 0 c).after 1 t) = _
  rw [after_result, operand_block]
  obtain ⟨-, -, -, e3, e4⟩ := idx_zero t
  funext y
  show stored (V m c main_v5) y = stored (V m c main_v5) (((cfg0.win 1).blk t).view.emb y)
  refine congrArg (stored (V m c main_v5)) (funext fun a => Fin.ext ?_)
  match a with
  | ⟨0, _⟩ => show (y 0).val = win0_1.index t (0 : Fin 2) * 2 + 1 * (y 0).val; omega
  | ⟨1, _⟩ => show (y 1).val = win0_1.index t (1 : Fin 2) * 2 + 1 * (y 1).val; omega

/-- An index of the result array is in the point's block iff each coordinate is in the block's range on its axis. -/
theorem mem_result_blk (t : Fin cfg0.N) (i : S2x2.Idx) :
    i ∈ ((cfg0.win 1).blk t).view.set
      ↔ ∀ a : Fin 2, win0_1.index t a * S2x2.size a ≤ (i a).val ∧ (i a).val < win0_1.index t a * S2x2.size a + S2x2.size a := by
  show i ∈ ((View.whole main_v6).slice (win0_1.rect t)).set ↔ _
  rw [View.set_slice_whole, Rect.mem_set_unit]
  exact Iff.rfl

/-- The one block covers the result array. -/
theorem covered (i : S2x2.Idx) : ∃ t : Fin cfg0.N, (cfg0.win 1).flush t = true ∧ i ∈ ((cfg0.win 1).blk t).view.set := by
  obtain ⟨-, -, -, e3, e4⟩ := idx_zero t0_0
  refine ⟨t0_0, flush0_1 t0_0, ?_⟩
  rw [mem_result_blk]
  intro a
  match a with
  | ⟨0, _⟩ =>
    show win0_1.index t0_0 (0 : Fin 2) * 2 ≤ (i 0).val ∧ (i 0).val < win0_1.index t0_0 (0 : Fin 2) * 2 + 2
    have hi : (i 0).val < 2 := (i 0).isLt
    omega
  | ⟨1, _⟩ =>
    show win0_1.index t0_0 (1 : Fin 2) * 2 ≤ (i 1).val ∧ (i 1).val < win0_1.index t0_0 (1 : Fin 2) * 2 + 2
    have hi : (i 1).val < 2 := (i 1).isLt
    omega

/-- The result array after the run is what the body stored, of the operand's array as the region finds it. -/
theorem result_array (c : Dev nD) : (dats m 0 c).arrAt 1 cfg0.N = stored (V m c main_v5) :=
  (dats m 0 c).arrAt_eq_of_cover 1 (stored (V m c main_v5)) (fun t _ => flushed_eq m c t) covered

/-! ## The slabs of the stack -/

section Slabs
variable (x3 x4 x5 x6 x7 : Vec F S2x2 .f32)

/-- Slab `k` of the stack, its unit axis dropped, is the `k`-th stacked array. -/
theorem slab0_eq : shapeCast S2x2 (View.ld (stack x3 x4 x5 x6 x7) slab0) shapeCasts_S1x2x2_S2x2 = x3 :=
  StackSlab.slab_eq (Val := Elt F) (e := .f32) ![2, 2] 5 (pieces x3 x4 x5 x6 x7) concatenates_S1x2x2_S1x2x2_S1x2x2_S1x2x2_S1x2x2_S5x2x2_d0 0 (show 0 < 5 by decide) x3 ![1, 2]
    (fun a => by fin_cases a <;> rfl) bcast_S2x2_S1x2x2_1_2 (by decide) rfl rfl ![0, 0, 0] rfl (fun a => by fin_cases a <;> rfl)
    inb_S5x2x2_S1x2x2_0_0_0 shapeCasts_S1x2x2_S2x2
theorem slab1_eq : shapeCast S2x2 (View.ld (stack x3 x4 x5 x6 x7) slab1) shapeCasts_S1x2x2_S2x2 = x4 :=
  StackSlab.slab_eq (Val := Elt F) (e := .f32) ![2, 2] 5 (pieces x3 x4 x5 x6 x7) concatenates_S1x2x2_S1x2x2_S1x2x2_S1x2x2_S1x2x2_S5x2x2_d0 1 (show 1 < 5 by decide) x4 ![1, 2]
    (fun a => by fin_cases a <;> rfl) bcast_S2x2_S1x2x2_1_2 (by decide) rfl rfl ![1, 0, 0] rfl (fun a => by fin_cases a <;> rfl)
    inb_S5x2x2_S1x2x2_1_0_0 shapeCasts_S1x2x2_S2x2
theorem slab2_eq : shapeCast S2x2 (View.ld (stack x3 x4 x5 x6 x7) slab2) shapeCasts_S1x2x2_S2x2 = x5 :=
  StackSlab.slab_eq (Val := Elt F) (e := .f32) ![2, 2] 5 (pieces x3 x4 x5 x6 x7) concatenates_S1x2x2_S1x2x2_S1x2x2_S1x2x2_S1x2x2_S5x2x2_d0 2 (show 2 < 5 by decide) x5 ![1, 2]
    (fun a => by fin_cases a <;> rfl) bcast_S2x2_S1x2x2_1_2 (by decide) rfl rfl ![2, 0, 0] rfl (fun a => by fin_cases a <;> rfl)
    inb_S5x2x2_S1x2x2_2_0_0 shapeCasts_S1x2x2_S2x2
theorem slab3_eq : shapeCast S2x2 (View.ld (stack x3 x4 x5 x6 x7) slab3) shapeCasts_S1x2x2_S2x2 = x6 :=
  StackSlab.slab_eq (Val := Elt F) (e := .f32) ![2, 2] 5 (pieces x3 x4 x5 x6 x7) concatenates_S1x2x2_S1x2x2_S1x2x2_S1x2x2_S1x2x2_S5x2x2_d0 3 (show 3 < 5 by decide) x6 ![1, 2]
    (fun a => by fin_cases a <;> rfl) bcast_S2x2_S1x2x2_1_2 (by decide) rfl rfl ![3, 0, 0] rfl (fun a => by fin_cases a <;> rfl)
    inb_S5x2x2_S1x2x2_3_0_0 shapeCasts_S1x2x2_S2x2
theorem slab4_eq : shapeCast S2x2 (View.ld (stack x3 x4 x5 x6 x7) slab4) shapeCasts_S1x2x2_S2x2 = x7 :=
  StackSlab.slab_eq (Val := Elt F) (e := .f32) ![2, 2] 5 (pieces x3 x4 x5 x6 x7) concatenates_S1x2x2_S1x2x2_S1x2x2_S1x2x2_S1x2x2_S5x2x2_d0 4 (show 4 < 5 by decide) x7 ![1, 2]
    (fun a => by fin_cases a <;> rfl) bcast_S2x2_S1x2x2_1_2 (by decide) rfl rfl ![4, 0, 0] rfl (fun a => by fin_cases a <;> rfl)
    inb_S5x2x2_S1x2x2_4_0_0 shapeCasts_S1x2x2_S2x2

end Slabs

/-! ## The stored value -/

/-- The matrix product of two 2×2 arrays accumulated into the zero array, as the body spells it. -/
abbrev mm (a b : FVec F S2x2 .f32) : FVec F S2x2 .f32 :=
  matmul dot_S2x2_S2x2_S2x2_1_0_0_1_n_n (some .fp32) a b (constant S2x2 .f32 0x00000000#32)

/-- The body's value of five 2×2 arrays: `(x3 · x7) · (x6 · x5) + (x4 · (x6 · x5)) · x6`. -/
def chain (x3 x4 x5 x6 x7 : FVec F S2x2 .f32) : FVec F S2x2 .f32 :=
  addf (mm (mm x3 x7) (mm x6 x5)) (mm (mm x4 (mm x6 x5)) x6)

/-- The body's value over its five loaded slabs is `chain` of the slabs with their unit axes dropped. -/
theorem pay_eq (v0 v2 v4 v6 v8 : Vec F S1x2x2 .f32) :
    k0_pay1 v0 v2 v4 v6 v8
      = chain (shapeCast S2x2 v0 shapeCasts_S1x2x2_S2x2) (shapeCast S2x2 v2 shapeCasts_S1x2x2_S2x2) (shapeCast S2x2 v4 shapeCasts_S1x2x2_S2x2)
          (shapeCast S2x2 v6 shapeCasts_S1x2x2_S2x2) (shapeCast S2x2 v8 shapeCasts_S1x2x2_S2x2) := rfl

/-- What the body stores, of the stack of five arrays, is `chain` of the five. -/
theorem stored_stack (x3 x4 x5 x6 x7 : Vec F S2x2 .f32) : stored (stack x3 x4 x5 x6 x7) = chain x3 x4 x5 x6 x7 := by
  rw [stored_eq, pay_eq, slab0_eq, slab1_eq, slab2_eq, slab3_eq, slab4_eq]

/-! ## The run, read -/

/-- Every weakly fair execution of @main terminates with the result array at `chain` of the third to seventh arguments
    and all seven arguments as launched. -/
theorem run : θ_run defs (onTc (τ := τ) (main (F := F))) ⟨m, fun _ => 0, ρ⟩ (fun r => ∀ c : Dev nD,
      r.2.mem ((c.tc : Thread nD τ).loc main_v6)
        = chain (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c).1.trans ((result_array m c).trans ((congrArg stored (V_stack m c)).trans (stored_stack _ _ _ _ _))), (h c).2⟩)
    (run_named m ρ)

end Cert.KernelIdeal.RegionValue

end
-- ==== Proof.SameFunction.lean ====
/-
  The two idealized programs compute one function.

  At the extended reals a matrix product read at an entry is the accumulator there plus the sum, over the contracted
  index, of the operands' products; the host's product is the same sum from zero.  The kernel accumulates each of its
  five products into the zero array, whose entries are the extended real `0`, so each is the host's product of the same
  operands — the two programs print the same record of contracted and free axes.  Both then form
  `(x3 · x7) · (x6 · x5) + (x4 · (x6 · x5)) · x6` with the products grouped the same way and one final sum, so the
  results agree entry by entry.  No law beyond `0 + s = s` is used: nothing is reassociated or distributed, and the inputs'
  finiteness plays no part.
-/
import proofs.«131000_j39676907886828_2_alg».proof.Proof.KernelIdealValue
import proofs.«131000_j39676907886828_2_alg».proof.Proof.Gen.ReferenceIdeal.Run
import Idealize.ShloMosaic.PureOps.Ideal.Laws

noncomputable section

namespace Cert.SameFunction

open Idealize.ShloMosaic Cert.KernelIdeal.RegionValue

/-- At the extended reals the kernel's product into the zero array is the host's product of the same operands. -/
theorem mm_eq_dot (a b : FVec Ideal Cert.KernelIdeal.S2x2 .f32) :
    mm (F := Ideal) a b = Host.dotGeneral (F := Ideal) Cert.ReferenceIdeal.dot_S2x2_S2x2_S2x2_1_0_0_1_n_n none a b := by
  funext j
  show FloatOps.matmul Cert.KernelIdeal.dot_S2x2_S2x2_S2x2_1_0_0_1_n_n (some .fp32) a b (constant Cert.KernelIdeal.S2x2 .f32 0x00000000#32) j
    = FloatOps.dotGeneral Cert.ReferenceIdeal.dot_S2x2_S2x2_S2x2_1_0_0_1_n_n none .single a b j
  rw [Ideal.matmul_constant_zero_apply, Ideal.dotGeneral_apply]
  rfl

/-- The kernel's value of five arrays is the reference's term of the same five. -/
theorem chain_eq_reference (x3 x4 x5 x6 x7 : FVec Ideal Cert.KernelIdeal.S2x2 .f32) :
    chain (F := Ideal) x3 x4 x5 x6 x7
      = addf
          (Host.dotGeneral Cert.ReferenceIdeal.dot_S2x2_S2x2_S2x2_1_0_0_1_n_n none
            (Host.dotGeneral Cert.ReferenceIdeal.dot_S2x2_S2x2_S2x2_1_0_0_1_n_n none x3 x7)
            (Host.dotGeneral Cert.ReferenceIdeal.dot_S2x2_S2x2_S2x2_1_0_0_1_n_n none x6 x5))
          (Host.dotGeneral Cert.ReferenceIdeal.dot_S2x2_S2x2_S2x2_1_0_0_1_n_n none
            (Host.dotGeneral Cert.ReferenceIdeal.dot_S2x2_S2x2_S2x2_1_0_0_1_n_n none x4
              (Host.dotGeneral Cert.ReferenceIdeal.dot_S2x2_S2x2_S2x2_1_0_0_1_n_n none x6 x5))
            x6) := by
  unfold chain
  rw [mm_eq_dot x3 x7, mm_eq_dot x6 x5, mm_eq_dot x4, mm_eq_dot _ x6, mm_eq_dot]

end Cert.SameFunction

end
-- ==== Proof.lean ====
/-
  The five claims of this certificate.

  The kernel stacks five of its seven 2×2 arguments into one 5×2×2 operand on the host and, in one pallas region with a
  single grid point, forms `(x3 · x7) · (x6 · x5) + (x4 · (x6 · x5)) · x6`; the reference forms the same expression with
  five host products and one sum.

  * The three frames: each program runs to its end without a fault and leaves its seven arguments unchanged — for the
    two kernel programs the region's run with the result array forgotten, for the reference its run of six host
    operations with the result forgotten.
  * `preserves`: the idealization rewrote nothing, and the claim is `True`.
  * `algebraic`: at the extended reals both programs end with the same result array — the kernel's at the value of its
    five products into zero accumulators, the reference's at its composed term, which are one function of arguments
    that agree.
-/
import proofs.«131000_j39676907886828_2_alg».proof.Defs
import proofs.«131000_j39676907886828_2_alg».proof.Proof.Gen.Kernel
import proofs.«131000_j39676907886828_2_alg».proof.Proof.Gen.KernelIdeal
import proofs.«131000_j39676907886828_2_alg».proof.Proof.Gen.ReferenceIdeal
import proofs.«131000_j39676907886828_2_alg».proof.Proof.Gen.ReferenceIdeal.Run
import proofs.«131000_j39676907886828_2_alg».proof.Proof.Gen.Pre_finite_inputs
import proofs.«131000_j39676907886828_2_alg».proof.Proof.KernelRegion
import proofs.«131000_j39676907886828_2_alg».proof.Proof.KernelIdealRegion
import proofs.«131000_j39676907886828_2_alg».proof.Proof.KernelIdealValue
import proofs.«131000_j39676907886828_2_alg».proof.Proof.SameFunction
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ =>
  (θ_run Cert.Kernel.defs _ _).mono (fun _ h c => (h c).2) (Cert.Kernel.Region.run_named (F := Bits) m ρ)

theorem frame_kernelIdeal : Cert.frame_KernelIdeal := fun m ρ _ =>
  (θ_run Cert.KernelIdeal.defs _ _).mono (fun _ h c => (h c).2) (Cert.KernelIdeal.Region.run_named (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the kernel's value of the third to seventh arguments: the kernel's by its
    region's run, the reference's because its composed term of agreeing arguments is that value. -/
theorem algebraic : Cert.algebraic_KernelIdeal_ReferenceIdeal := by
  intro m ρ m' ρ' _ hagree
  refine ⟨_, Cert.KernelIdeal.RegionValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨-, -, h2, h3, h4, h5, h6⟩ := hagree c
  rw [h2, h3, h4, h5, h6]
  exact (Cert.SameFunction.chain_eq_reference _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
